-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x256 : Shape := ⟨2, ![16384, 256]⟩
abbrev S256x256 : Shape := ⟨2, ![256, 256]⟩
abbrev S256 : Shape := ⟨1, ![256]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S16384x16384 .f32) (main_arg1 : FVec F S16384x256 .f32) (main_arg2 : FVec F S256x256 .f32) (main_arg3 : FVec F S256 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S16384x16384 : Shape := ⟨2, ![16384, 16384]⟩
abbrev S16384x256 : Shape := ⟨2, ![16384, 256]⟩
abbrev S256x256 : Shape := ⟨2, ![256, 256]⟩
abbrev S256 : Shape := ⟨1, ![256]⟩
abbrev S1x256 : Shape := ⟨2, ![1, 256]⟩
abbrev S1024x2048 : Shape := ⟨2, ![1024, 2048]⟩
abbrev S1024x256 : Shape := ⟨2, ![1024, 256]⟩
abbrev S2048x256 : Shape := ⟨2, ![2048, 256]⟩

abbrev nBuf : Space → Nat
  | .hbm => 9
  | .vmem => 8
  | .smem => 0
  | _ => 0

abbrev bufTy : (tb : Table) → Fin (tcTables nBuf tb) → BufTy
  | .hbm, ⟨0, _⟩ => ⟨S16384x16384, .f32⟩
  | .hbm, ⟨1, _⟩ => ⟨S16384x256, .f32⟩
  | .hbm, ⟨2, _⟩ => ⟨S256x256, .f32⟩
  | .hbm, ⟨3, _⟩ => ⟨S256, .f32⟩
  | .hbm, ⟨4, _⟩ => ⟨S16384x256, .bf16⟩
  | .hbm, ⟨5, _⟩ => ⟨S256x256, .f32⟩
  | .hbm, ⟨6, _⟩ => ⟨S256x256, .bf16⟩
  | .hbm, ⟨7, _⟩ => ⟨S1x256, .f32⟩
  | .hbm, ⟨8, _⟩ => ⟨S16384x256, .f32⟩
  | .local _ .vmem, ⟨0, _⟩ => ⟨S1024x2048, .f32⟩
  | .local _ .vmem, ⟨1, _⟩ => ⟨S1024x2048, .f32⟩
  | .local _ .vmem, ⟨2, _⟩ => ⟨S16384x256, .bf16⟩
  | .local _ .vmem, ⟨3, _⟩ => ⟨S256x256, .bf16⟩
  | .local _ .vmem, ⟨4, _⟩ => ⟨S1x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c2048_i32 : BitVec 32 := 2048#32
  let v5 : BitVec 32 := Scalar.muli arg1 c2048_i32
  v5
def k0_off1 (i : grid0.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k0_cond2 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  transposes_S256x256_S256x256_1_0 : S256x256.Transposes [1, 0] S256x256
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2048_S1024x2048_0_0 : ∀ a, (![0, 0] : Fin 2 → Nat) a + S1024x2048.size a ≤ S1024x2048.size a
  h_S1024x2048 : 0 < S1024x2048.numel
  h_S2048x256 : 0 < S2048x256.numel
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x2048_S2048x256_S1024x256_1_0_0_1_n_n_wf : DotDims.WF S1024x2048 S2048x256 S1024x256 [1] [0] [0] [1] [] []
  dot_S1024x256_S256x256_S1024x256_1_0_0_1_n_n_wf : DotDims.WF S1024x256 S256x256 S1024x256 [1] [0] [0] [1] [] []
  hrank0 : 0 < grid0.rank
  k0_mult1_dvd : ∀ i : grid0.Coords, 16 ∣ (k0_mult1 i).toNat
  k0_off1_inb : ∀ i : grid0.Coords, ∀ a, (k0_off1 i) a + S2048x256.size a ≤ S16384x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x256.size a ≤ S16384x256.size a
  hwx0_1 : ∀ i : grid0.Coords, EltTy.bits .bf16 = 32 ∨ (Rect.block (s := S16384x256) S16384x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S16384x256.size a
  hwx0_4 : ∀ i : grid0.Coords, EltTy.bits .f32 = 32 ∨ (Rect.block (s := S16384x256) S1024x256.size (cc0_transform_4 i) (hinb0_4 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16384x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x16384 : Shape := ⟨2, ![16384, 16384]⟩
abbrev S16384x256 : Shape := ⟨2, ![16384, 256]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x256, .f32⟩
  | .hbm, ⟨2, _⟩ => ⟨S256x256, .f32⟩
  | .hbm, ⟨3, _⟩ => ⟨S256, .f32⟩
  | .hbm, ⟨4, _⟩ => ⟨S16384x256, .f32⟩
  | .hbm, ⟨5, _⟩ => ⟨S16384x256, .f32⟩
  | .hbm, ⟨6, _⟩ => ⟨S1x256, .f32⟩
  | .hbm, ⟨7, _⟩ => ⟨S16384x256, .f32⟩
  | .hbm, ⟨8, _⟩ => ⟨S16384x256, .f32⟩
  | .hbm, ⟨9, _⟩ => ⟨S_, .f32⟩
  | .hbm, ⟨10, _⟩ => ⟨S16384x256, .f32⟩
  | .hbm, ⟨11, _⟩ => ⟨S16384x256, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  dot_S16384x16384_S16384x256_S16384x256_1_0_0_1_n_n_wf : DotDims.WF S16384x16384 S16384x256 S16384x256 [1] [0] [0] [1] [] []
  dot_S16384x256_S256x256_S16384x256_1_1_0_0_n_n_wf : DotDims.WF S16384x256 S256x256 S16384x256 [1] [1] [0] [0] [] []

variable [Facts₀]

def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf
def dot_S16384x256_S256x256_S16384x256_1_1_0_0_n_n : DotDims S16384x256 S256x256 S16384x256 where
  lhsContracting := [1]
  rhsContracting := [1]
  lhsNonContracting := [0]
  rhsNonContracting := [0]
  lhsBatch := []
  rhsBatch := []
  wf := dot_S16384x256_S256x256_S16384x256_1_1_0_0_n_n_wf

class Facts : Prop extends Facts₀ where

variable [Facts]
-- ==== Proof.LibBlockSum.lean ====
/-
  General facts for setting a sum that is computed block by block beside the same sum computed in one pass.

  * `sum_range_blocks`: in any additive commutative monoid, the sum of `f` over the first `d · n` naturals is the sum,
    over the `n` consecutive blocks of length `d`, of each block's own sum. Only associativity and commutativity of
    the addition are used, so it holds on the extended reals, infinities included.
  * `at1`, `at2`: an array of rank one or two read at NATURAL coordinates — its entry when the coordinates are inside
    the extents, zero outside. With them a sum over positions of an array is a sum over naturals, and block offsets
    are plain arithmetic. `at1_eq` / `at2_eq`: at the coordinates of an index, they are the entry at that index.
-/
import Mathlib.Algebra.BigOperators.Intervals
import Mathlib.Algebra.BigOperators.Fin
import Idealize.ShloMosaic.Lib.ValueIdx

namespace Cert.LibBlockSum

open Finset Idealize.ShloMosaic Idealize.ShloMosaic.ValueIdx

/-- A sum over the first `d · n` naturals, regrouped into `n` consecutive blocks of `d` terms: position `d · s + k`
    is term `k` of block `s`. By induction on the number of blocks: the last block is split off the end of the range. -/
theorem sum_range_blocks {M : Type*} [AddCommMonoid M] (f : ℕ → M) (d : ℕ) :
    ∀ n : ℕ, ∑ i ∈ range (d * n), f i = ∑ s ∈ range n, ∑ k ∈ range d, f (d * s + k)
  | 0 => by simp
  | n + 1 => by
    rw [Nat.mul_succ, sum_range_add, sum_range_blocks f d n, sum_range_succ]

/-- A rank-1 array read at a natural coordinate: the entry there, or zero past the extent. -/
def at1 {M : Type*} [Zero M] {n : ℕ} (B : (⟨1, ![n]⟩ : Shape).Idx → M) (a : ℕ) : M :=
  if h : a < n then B (ix1 ⟨a, h⟩) else 0

/-- At the coordinate of an index, `at1` is the entry at that index. -/
theorem at1_eq {M : Type*} [Zero M] {n : ℕ} (B : (⟨1, ![n]⟩ : Shape).Idx → M) (i : (⟨1, ![n]⟩ : Shape).Idx) (a : ℕ)
    (ha : (i 0).val = a) : at1 B a = B i := by
  subst ha
  unfold at1
  rw [dif_pos (show (i 0).val < n from (i 0).isLt)]
  exact congrArg B (eq_ix1 i).symm

/-- A rank-2 array read at natural coordinates: the entry there, or zero outside the extents. -/
def at2 {M : Type*} [Zero M] {n0 n1 : ℕ} (A : (⟨2, ![n0, n1]⟩ : Shape).Idx → M) (a b : ℕ) : M :=
  if h : a < n0 ∧ b < n1 then A (ix2 ⟨a, h.1⟩ ⟨b, h.2⟩) else 0

/-- At the coordinates of an index, `at2` is the entry at that index. -/
theorem at2_eq {M : Type*} [Zero M] {n0 n1 : ℕ} (A : (⟨2, ![n0, n1]⟩ : Shape).Idx → M)
    (i : (⟨2, ![n0, n1]⟩ : Shape).Idx) (a b : ℕ) (ha : (i 0).val = a) (hb : (i 1).val = b) : at2 A a b = A i := by
  subst ha; subst hb
  unfold at2
  rw [dif_pos ⟨idx2_lt0 i, idx2_lt1 i⟩]
  exact congrArg A (eq_ix2 i).symm

end Cert.LibBlockSum
-- ==== Proof.Spec.lean ====
/-
  One graph-convolution layer as a single formula of its four arrays.

  For an adjacency array `A` (16384 × 16384), node features `X` (16384 × 256), a weight array `W` (256 × 256, rows indexed by
  the output feature) and a bias `b` (256), the layer's value at node `r` and output feature `o` is

      max ( (∑ j, (∑ k, A[r, k] · X[k, j]) · W[o, j]) + b[o] , 0 ).

  The inner sum — the aggregated feature `j` of node `r` — is written here as a sum over the first `n` neighbours, `agg A X r j n`,
  with the arrays read at natural coordinates, so that "the neighbours of one column block" is plain arithmetic: the first
  `n + d` neighbours are the first `n` and then `d` more (`agg_add`), and all 16384 of them give the whole row-times-column
  sum (`agg_full`). Only associativity and commutativity of the extended reals' addition are used: no entry needs to be finite.
-/
import Mathlib.Algebra.BigOperators.Intervals
import Idealize.ShloMosaic.PureOps.Ideal.Laws
import Idealize.ShloMosaic.Lib.ValueIdx
import proofs.«169878_j64029372449311_2_alg».proof.Proof.LibBlockSum

noncomputable section

open scoped BigOperators

namespace Cert.GraphConv

open Finset Idealize.ShloMosaic Idealize.ShloMosaic.ValueIdx Cert.LibBlockSum

/-- The adjacency array's shape, the feature (and result) arrays', the weight array's and the bias'. -/
abbrev SA : Shape := ⟨2, ![16384, 16384]⟩
abbrev SX : Shape := ⟨2, ![16384, 256]⟩
abbrev SW : Shape := ⟨2, ![256, 256]⟩
abbrev SB : Shape := ⟨1, ![256]⟩

/-- Feature `j` of node `r` aggregated over its first `n` neighbours: `∑ k < n, A[r, k] · X[k, j]`. -/
def agg (A : SA.Idx → EReal) (X : SX.Idx → EReal) (r j n : ℕ) : EReal :=
  ∑ k ∈ range n, at2 A r k * at2 X k j

/-- Over no neighbour the aggregate is zero. -/
theorem agg_zero (A : SA.Idx → EReal) (X : SX.Idx → EReal) (r j : ℕ) : agg A X r j 0 = 0 := sum_range_zero _

/-- `d` more neighbours add their own terms to the aggregate over the first `n`. -/
theorem agg_add (A : SA.Idx → EReal) (X : SX.Idx → EReal) (r j n d : ℕ) :
    agg A X r j (n + d) = agg A X r j n + ∑ k ∈ range d, at2 A r (n + k) * at2 X (n + k) j :=
  sum_range_add _ _ _

/-- Over all 16384 neighbours the aggregate is the row of `A` times the column of `X`. -/
theorem agg_full (A : SA.Idx → EReal) (X : SX.Idx → EReal) (r : Fin 16384) (j : Fin 256) :
    agg A X r.val j.val 16384 = ∑ k : Fin 16384, A (ix2 r k) * X (ix2 k j) := by
  unfold agg
  rw [Finset.sum_range]
  refine sum_congr rfl fun k _ => ?_
  rw [at2_eq A (ix2 r k) r.val k.val rfl rfl, at2_eq X (ix2 k j) k.val j.val rfl rfl]

/-- THE LAYER: `relu ((A · X) · Wᵀ + b)`, entry by entry. -/
def layer (A : SA.Idx → EReal) (X : SX.Idx → EReal) (W : SW.Idx → EReal) (b : SB.Idx → EReal) : SX.Idx → EReal := fun i =>
  max ((∑ j : Fin 256, agg A X (i 0).val j.val 16384 * W (ix2 (i 1) j)) + b (ix1 (i 1))) 0

end Cert.GraphConv

end
-- ==== Proof.RefLayer.lean ====
/-
  The reference program computes the layer.

  Its last stage, read entry by entry, is `max (h₂[r, o] + b[o], 0)` with `h₂[r, o] = ∑ j, h[r, j] · W[o, j]` (the product that
  contracts the last axis of both operands) and `h[r, j] = ∑ k, A[r, k] · X[k, j]`; the bias reaches entry `(r, o)` through two
  broadcasts that both keep the column. That is the layer's formula term for term: nothing is rearranged on this side.
-/
import proofs.«169878_j64029372449311_2_alg».proof.Proof.Gen.ReferenceIdeal.Read
import proofs.«169878_j64029372449311_2_alg».proof.Proof.Spec

noncomputable section

open scoped BigOperators

namespace Cert.GraphConv.Ref

open Cert.ReferenceIdeal Cert.ReferenceIdeal.Read Idealize.ShloMosaic Idealize.ShloMosaic.ValueIdx Cert.GraphConv

/-- The reference's result stage, as a function of the four argument arrays, is the layer. -/
theorem stage_eq_layer (A : SA.Idx → EReal) (X : SX.Idx → EReal) (W : SW.Idx → EReal) (b : SB.Idx → EReal) :
    val_main_v5 (F := Ideal) A X W b = layer A X W b := by
  funext i
  -- where each operand is read for entry `i`: row `i 0` of `A`, column `j` of `X`, row `i 1` of `W`, entry `i 1` of `b`
  have eA : ∀ (j : Fin 256) (k : Fin 16384), lidx_main_v0 (lidx_main_v1 i j) k = ix2 (i 0) k := fun j k =>
    funext fun a => Fin.ext (by match a with | ⟨0, _⟩ => rfl | ⟨1, _⟩ => rfl)
  have eX : ∀ (j : Fin 256) (k : Fin 16384), ridx_main_v0 (lidx_main_v1 i j) k = ix2 k j := fun j k =>
    funext fun a => Fin.ext (by match a with | ⟨0, _⟩ => rfl | ⟨1, _⟩ => rfl)
  have eW : ∀ j : Fin 256, ridx_main_v1 i j = ix2 (i 1) j := fun j =>
    funext fun a => Fin.ext (by match a with | ⟨0, _⟩ => rfl | ⟨1, _⟩ => rfl)
  have eb : idx_main_v2 (idx_main_v3 i) = ix1 (i 1) :=
    funext fun a => Fin.ext (by match a with | ⟨0, _⟩ => rfl)
  rw [val_main_v5_apply, val_main_v4_apply, val_main_v1_apply, val_main_v3_apply, val_main_v2_apply,
    val_main_call0_v0_apply, val_main_call0_cst_apply]
  simp only [val_main_v0_apply, eA, eX, eW, eb]
  unfold layer
  show max (_ + _) (Ideal.ofBits .f32 0x00000000#32) = _
  rw [Ideal.ofBits_zero_f32]
  refine congrArg (fun z => max (z + b (ix1 (i 1))) 0) (Finset.sum_congr rfl fun j _ => ?_)
  exact congrArg (fun z => z * W (ix2 (i 1) j)) (agg_full A X (i 0) j).symm

end Cert.GraphConv.Ref

end
-- ==== Proof.Pieces.lean ====
/-
  What one grid step leaves behind, as terms of the step's arithmetic.

  The grid is 16 row tiles by 8 column tiles of the adjacency array, the column tile innermost. Every step multiplies its
  1024 × 2048 adjacency tile by the 2048 matching rows of the resident feature array and adds the product to a 1024 × 256
  accumulator kept in scratch memory between steps. A step at column tile 0 first overwrites the accumulator with zeros; a step at
  column tile 7 then multiplies the finished accumulator by the transposed weights, adds the bias row, clips below at zero and
  stores that as the row tile's block of the result. So there are three kinds of step — first, middle, last of a row tile — and
  this module says, for each, what the scratch (and, for the last, the result block) holds afterwards, as the body's own
  arithmetic (`k0_pay1` the zero tile, `k0_pay2` accumulate, `k0_pay3` project-bias-clip) applied to the step's loaded tiles.
  Every store of the body overwrites its whole buffer and every load but one reads a whole buffer, so a buffer's contents after
  the step are the payload of the last store into it, and a load after a store reads that store's payload.
-/
import proofs.«169878_j64029372449311_2_alg».proof.Proof.Gen.KernelIdeal.Frame
import Idealize.ShloMosaic.Lib.Pipeline.Value
import Idealize.ShloMosaic.Lib.Tactic

noncomputable section

namespace Cert.KernelIdeal.Step

open Cert.KernelIdeal Cert.KernelIdeal.Gen Idealize.ShloMosaic Idealize.ShloMosaic.TcCoe Idealize.SL.Sem

variable {F : FTy → Type} [FloatOps F]

theorem zero_offsets : (![0, 0] : Fin 2 → Nat) = fun _ => 0 := funext fun a => by fin_cases a <;> rfl

/-- The 2048 rows of the resident feature array a step at grid coordinates `i` multiplies its adjacency tile by: the one load of
    the body that reads part of a buffer, at the row offset the body computes from the column-tile coordinate. -/
abbrev featRows (i : grid0.Coords) (x1 : Vec F S16384x256 .bf16) : Vec F S2048x256 .bf16 :=
  View.ld x1 (Rect.unit (k0_off1 i) S2048x256.size (k0_off1_inb i))

/-- FIRST STEP of a row tile: the scratch ends at `zero tile + adjacency tile · feature rows`. The accumulator the step adds to
    is what it has just stored, the zero tile, read back. -/
theorem scratch_first (c : Dev nD) (i : grid0.Coords) (a2 : Memref sig .tc .vmem S1024x2048 .f32) (h2 : a2.IsWhole) (a3 : Memref sig .tc .vmem S16384x256 .bf16) (h3 : a3.IsWhole) (a4 : Memref sig .tc .vmem S256x256 .bf16) (h4 : a4.IsWhole) (a5 : Memref sig .tc .vmem S1x256 .f32) (h5 : a5.IsWhole) (a6 : Memref sig .tc .vmem S1024x256 .f32) (h6 : a6.IsWhole) (a7 : Memref sig .tc .vmem S1024x256 .f32) (h7 : a7.IsWhole) (hc0 : cond0_0 i) (hc1 : ¬cond0_1 i)
    (x0 : Vec F S1024x2048 .f32) (x1 : Vec F S16384x256 .bf16) (x2 : Vec F S256x256 .bf16) (x3 : Vec F S1x256 .f32) :
    sout0_A_0 c i a2 h2 a3 h3 a4 h4 a5 h5 a6 h6 a7 h7 hc0 hc1 x0 x1 x2 x3 = k0_pay2 x0 (featRows i x1) (k0_pay1 (F := F)) := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S1024x256) zero_offsets, View.readCov_unit_zero (S := S1024x256) _ zero_offsets]
  simp only [View.readAt_eq_ld, h2.read_unread, h3.read_unread, View.ld_unit_zero (S := S1024x2048) zero_offsets]
  rfl

/-- MIDDLE STEP: the scratch, found holding `acc`, ends at `acc + adjacency tile · feature rows`. -/
theorem scratch_middle (c : Dev nD) (i : grid0.Coords) (a2 : Memref sig .tc .vmem S1024x2048 .f32) (h2 : a2.IsWhole) (a3 : Memref sig .tc .vmem S16384x256 .bf16) (h3 : a3.IsWhole) (a4 : Memref sig .tc .vmem S256x256 .bf16) (h4 : a4.IsWhole) (a5 : Memref sig .tc .vmem S1x256 .f32) (h5 : a5.IsWhole) (a6 : Memref sig .tc .vmem S1024x256 .f32) (h6 : a6.IsWhole) (a7 : Memref sig .tc .vmem S1024x256 .f32) (h7 : a7.IsWhole) (hc0 : ¬cond0_0 i) (hc1 : ¬cond0_1 i)
    (x0 : Vec F S1024x2048 .f32) (x1 : Vec F S16384x256 .bf16) (x2 : Vec F S256x256 .bf16) (x3 : Vec F S1x256 .f32) (acc : Vec F S1024x256 .f32) :
    sout0_B_0 c i a2 h2 a3 h3 a4 h4 a5 h5 a6 h6 a7 h7 hc0 hc1 x0 x1 x2 x3 acc = k0_pay2 x0 (featRows i x1) acc := by
  unfold sout0_B_0
  rw [View.read_writes_eq_canon _ _ _ (scover0_B_0 c i a2 h2 a3 h3 a4 h4 a5 h5 a6 h6 a7 h7 hc0 hc1 x0 x1 x2 x3 acc)]
  unfold kernelRun0_B
  dsimp only
  rw [View.canon_unit_zero zero_offsets]
  simp only [View.readAt_eq_ld, h2.read_unread, h3.read_unread, h7.read_unread, View.ld_unit_zero (S := S1024x2048) zero_offsets,
    View.ld_unit_zero (S := S1024x256) zero_offsets]

/-- LAST STEP, the scratch: the same accumulation as a middle step. -/
theorem scratch_last (c : Dev nD) (i : grid0.Coords) (a2 : Memref sig .tc .vmem S1024x2048 .f32) (h2 : a2.IsWhole) (a3 : Memref sig .tc .vmem S16384x256 .bf16) (h3 : a3.IsWhole) (a4 : Memref sig .tc .vmem S256x256 .bf16) (h4 : a4.IsWhole) (a5 : Memref sig .tc .vmem S1x256 .f32) (h5 : a5.IsWhole) (a6 : Memref sig .tc .vmem S1024x256 .f32) (h6 : a6.IsWhole) (a7 : Memref sig .tc .vmem S1024x256 .f32) (h7 : a7.IsWhole) (hc0 : ¬cond0_0 i) (hc1 : cond0_1 i)
    (x0 : Vec F S1024x2048 .f32) (x1 : Vec F S16384x256 .bf16) (x2 : Vec F S256x256 .bf16) (x3 : Vec F S1x256 .f32) (acc : Vec F S1024x256 .f32) :
    sout0_C_0 c i a2 h2 a3 h3 a4 h4 a5 h5 a6 h6 a7 h7 hc0 hc1 x0 x1 x2 x3 acc = k0_pay2 x0 (featRows i x1) acc := by
  unfold sout0_C_0
  rw [View.read_writes_eq_canon _ _ _ (scover0_C_0 c i a2 h2 a3 h3 a4 h4 a5 h5 a6 h6 a7 h7 hc0 hc1 x0 x1 x2 x3 acc)]
  unfold kernelRun0_C
  dsimp only
  sl_unfold_words
  rw [View.canon_unit_zero zero_offsets]
  simp only [View.readAt_eq_ld, h2.read_unread, h3.read_unread, h7.read_unread, View.ld_unit_zero (S := S1024x2048) zero_offsets,
    View.ld_unit_zero (S := S1024x256) zero_offsets]
  rfl

/-- LAST STEP, the result block: the finished accumulator (what this step has just stored in the scratch, read back) projected
    through the weight tile, plus the bias row, clipped below at zero. -/
theorem block_last (c : Dev nD) (i : grid0.Coords) (a2 : Memref sig .tc .vmem S1024x2048 .f32) (h2 : a2.IsWhole) (a3 : Memref sig .tc .vmem S16384x256 .bf16) (h3 : a3.IsWhole) (a4 : Memref sig .tc .vmem S256x256 .bf16) (h4 : a4.IsWhole) (a5 : Memref sig .tc .vmem S1x256 .f32) (h5 : a5.IsWhole) (a6 : Memref sig .tc .vmem S1024x256 .f32) (h6 : a6.IsWhole) (a7 : Memref sig .tc .vmem S1024x256 .f32) (h7 : a7.IsWhole) (hc0 : ¬cond0_0 i) (hc1 : cond0_1 i)
    (x0 : Vec F S1024x2048 .f32) (x1 : Vec F S16384x256 .bf16) (x2 : Vec F S256x256 .bf16) (x3 : Vec F S1x256 .f32) (acc : Vec F S1024x256 .f32) :
    out0_C_4 c i a2 h2 a3 h3 a4 h4 a5 h5 a6 h6 a7 h7 hc0 hc1 x0 x1 x2 x3 acc = k0_pay3 (k0_pay2 x0 (featRows i x1) acc) x2 x3 := by
  unfold out0_C_4
  rw [View.read_writes_eq_canon _ _ _ (cover0_C_4 c i a2 h2 a3 h3 a4 h4 a5 h5 a6 h6 a7 h7 hc0 hc1 x0 x1 x2 x3 acc)]
  unfold kernelRun0_C
  dsimp only
  sl_unfold_words
  rw [View.canon_unit_zero zero_offsets, View.readCov_unit_zero (S := S1024x256) _ zero_offsets]
  simp only [View.readAt_eq_ld, h2.read_unread, h3.read_unread, h4.read_unread, h5.read_unread, h7.read_unread,
    View.ld_unit_zero (S := S1024x2048) zero_offsets, View.ld_unit_zero (S := S1024x256) zero_offsets,
    View.ld_unit_zero (S := S256x256) zero_offsets, View.ld_unit_zero (S := S1x256) zero_offsets]
  rfl

end Cert.KernelIdeal.Step

end
-- ==== Proof.Tiles.lean ====
/-
  The tiles a grid step loads, as entries of the four argument arrays.

  Grid step `t` (0 ≤ t < 128) works on row tile `t / 8` and column tile `t % 8`. Reading the arrays at natural coordinates:
    * its adjacency tile at `(p, k)` is `A[1024 · (t / 8) + p, 2048 · (t % 8) + k]`;
    * the feature array is resident whole, cast once to the narrow format (the identity on extended reals), and the step's
      2048 rows of it are rows `2048 · (t % 8) + k`: entry `(k, q)` of them is `X[2048 · (t % 8) + k, q]`;
    * the weight tile is the whole transposed weight array: at `(j, q)` it is `W[q, j]`;
    * the bias tile is the bias as one row: at `(0, q)` it is `b[q]`.
  Which block of its array each window holds at step `t`, and the row offset the body computes, are decided once over the 128
  grid points; a block's coordinate is always block index × block extent + the coordinate inside the block.
-/
import proofs.«169878_j64029372449311_2_alg».proof.Proof.Gen.KernelIdeal.Frame
import proofs.«169878_j64029372449311_2_alg».proof.Proof.Pieces
import proofs.«169878_j64029372449311_2_alg».proof.Proof.Spec
import Idealize.ShloMosaic.Lib.StableHlo.Run
import Idealize.ShloMosaic.Lib.Pipeline.Value
import Idealize.ShloMosaic.Lib.ValueLayout

noncomputable section

namespace Cert.KernelIdeal.Tiles

open Cert.KernelIdeal Cert.KernelIdeal.Gen Idealize.ShloMosaic Idealize.ShloMosaic.TcCoe Idealize.SL.Sem Idealize.ShloMosaic.ValueIdx
open Cert.GraphConv Cert.LibBlockSum Cert.KernelIdeal.Step

variable (m : (ℓ : Loc nD τ sig) → Buf (Elt Ideal) ℓ)

/-- Over the grid: the adjacency window holds block `(t / 8, t % 8)`, the three resident windows block `(0, 0)`, the result
    window block `(t / 8, 0)`, and the body's feature-row offset is `(2048 · (t % 8), 0)`. -/
theorem tile_facts : ∀ t : Fin cfg0.N,
    win0_0.index t (0 : Fin 2) = t.val / 8 ∧ win0_0.index t (1 : Fin 2) = t.val % 8
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 8 ∧ win0_4.index t (1 : Fin 2) = 0
    ∧ k0_off1 (grid0.coords t) (0 : Fin 2) = 2048 * (t.val % 8) ∧ k0_off1 (grid0.coords t) (1 : Fin 2) = 0 :=
  (by decide +kernel : ∀ t : Fin grid0.N, _)

/-- The four argument arrays of device `c`, as launched: adjacency, features, weights (rows = output features), bias. -/
abbrev adj (c : Dev nD) : SA.Idx → EReal := m ((c : Thread nD τ).loc main_arg0)
abbrev feat (c : Dev nD) : SX.Idx → EReal := m ((c : Thread nD τ).loc main_arg1)
abbrev wts (c : Dev nD) : SW.Idx → EReal := m ((c : Thread nD τ).loc main_arg2)
abbrev bias (c : Dev nD) : SB.Idx → EReal := m ((c : Thread nD τ).loc main_arg3)

/-- What the region finds in the three arrays written before it: the features (their format change is the identity here), -/
theorem region_feat (c : Dev nD) : (V m c main_v0 : S16384x256.Idx → EReal) = feat m c := by
  dsimp only [Gen.V, Gen.hostOps0]; after_results; rfl

/-- the transposed weights, -/
theorem region_wts (c : Dev nD) : (V m c main_v2 : S256x256.Idx → EReal)
    = transpose S256x256 [1, 0] (wts m c) transposes_S256x256_S256x256_1_0 := by
  dsimp only [Gen.V, Gen.hostOps0]; after_results; rfl

/-- and the bias as a one-row array. -/
theorem region_bias (c : Dev nD) : (V m c main_v3 : S1x256.Idx → EReal)
    = shapeCast S1x256 (bias m c) shapeCasts_S256_S1x256 := by
  dsimp only [Gen.V, Gen.hostOps0]; after_results; rfl

/-- The adjacency tile of step `t` at `(p, k)`. -/
theorem adj_tile (c : Dev nD) (t : Fin cfg0.N) (p : Fin 1024) (k : Fin 2048) :
    iblk m c 0 t (ix2 p k) = at2 (adj m c) (1024 * (t.val / 8) + p.val) (2048 * (t.val % 8) + k.val) := by
  obtain ⟨e0, e1, -⟩ := tile_facts t
  unfold iblk
  rw [View.read_apply]
  show V m c main_arg0 (((cfg0.win 0).blk t).view.emb (ix2 p k)) = _
  rw [V_main_arg0]
  refine (at2_eq (adj m c) _ _ _ ?_ ?_).symm
  · show win0_0.index t (0 : Fin 2) * 1024 + 1 * p.val = _
    rw [e0]; omega
  · show win0_0.index t (1 : Fin 2) * 2048 + 1 * k.val = _
    rw [e1]; omega

/-- The feature rows of step `t` at `(k, q)`: the resident block is the whole array, and the body reads it from row
    `2048 · (t % 8)` on. -/
theorem feat_rows (c : Dev nD) (t : Fin cfg0.N) (k : Fin 2048) (q : Fin 256) :
    featRows (grid0.coords t) (iblk m c 1 t) (ix2 k q) = at2 (feat m c) (2048 * (t.val % 8) + k.val) q.val := by
  obtain ⟨-, -, e0, e1, -, -, -, -, -, -, o0, o1⟩ := tile_facts t
  unfold featRows View.ld iblk
  rw [View.read_apply]
  show (V m c main_v0 : S16384x256.Idx → EReal) _ = _
  rw [region_feat]
  refine (at2_eq (feat m c) _ _ _ ?_ ?_).symm
  · show win0_1.index t (0 : Fin 2) * 16384 + 1 * (k0_off1 (grid0.coords t) (0 : Fin 2) + 1 * k.val) = _
    rw [e0, o0]; omega
  · show win0_1.index t (1 : Fin 2) * 256 + 1 * (k0_off1 (grid0.coords t) (1 : Fin 2) + 1 * q.val) = _
    rw [e1, o1]; omega

/-- The weight tile at `(j, q)` is the weight of input feature `j` in output feature `q`. -/
theorem wt_tile (c : Dev nD) (t : Fin cfg0.N) (j : Fin 256) (q : Fin 256) :
    iblk m c 2 t (ix2 j q) = wts m c (ix2 q j) := by
  obtain ⟨-, -, -, -, e0, e1, -⟩ := tile_facts t
  unfold iblk
  rw [View.read_apply]
  show (V m c main_v2 : S256x256.Idx → EReal) (((cfg0.win 2).blk t).view.emb (ix2 j q)) = _
  rw [region_wts]
  have ei : ((cfg0.win 2).blk t).view.emb (ix2 j q) = ix2 j q := by
    funext a; apply Fin.ext
    match a with
    | ⟨0, _⟩ => show win0_2.index t (0 : Fin 2) * 256 + 1 * j.val = j.val; rw [e0]; omega
    | ⟨1, _⟩ => show win0_2.index t (1 : Fin 2) * 256 + 1 * q.val = q.val; rw [e1]; omega
  rw [ei]
  exact transpose_ix2_apply (wts m c) transposes_S256x256_S256x256_1_0 j q

/-- The bias tile's one row at column `q` is the bias of output feature `q`. -/
theorem bias_tile (c : Dev nD) (t : Fin cfg0.N) (q : Fin 256) :
    iblk m c 3 t (ix2 (0 : Fin 1) q) = bias m c (ix1 q) := by
  obtain ⟨-, -, -, -, -, -, e0, e1, -⟩ := tile_facts t
  unfold iblk
  rw [View.read_apply]
  show (V m c main_v3 : S1x256.Idx → EReal) (((cfg0.win 3).blk t).view.emb (ix2 (0 : Fin 1) q)) = _
  rw [region_bias]
  have ei : ((cfg0.win 3).blk t).view.emb (ix2 (0 : Fin 1) q) = ix2 (0 : Fin 1) q := by
    funext a; apply Fin.ext
    match a with
    | ⟨0, _⟩ => show win0_3.index t (0 : Fin 2) * 1 + 1 * 0 = 0; rw [e0]
    | ⟨1, _⟩ => show win0_3.index t (1 : Fin 2) * 256 + 1 * q.val = q.val; rw [e1]; omega
  rw [ei]
  exact shapeCast_a_1a_apply (bias m c) shapeCasts_S256_S1x256 0 q

end Cert.KernelIdeal.Tiles

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.Payload.lean ====
/-
  The step's arithmetic read at one entry, over the extended reals.

  At the ideal values a change of float format is the identity and a matrix-unit product into the zero tile is the plain sum of
  products, so at row `p`, column `q` of a 1024 × 256 tile:
    * the zero tile holds `0`;
    * accumulate: `acc[p, q] + ∑ k < 2048, a[p, k] · x[k, q]` for the adjacency tile `a` and the feature rows `x`;
    * project-bias-clip: `max ((∑ j < 256, h[p, j] · wt[j, q]) + b[0, q], 0)` for the accumulator `h`, the transposed-weight tile
      `wt` and the bias row `b`, which is repeated down the rows.
-/
import proofs.«169878_j64029372449311_2_alg».proof.Proof.Gen.KernelIdeal.Skeleton
import proofs.«169878_j64029372449311_2_alg».proof.Proof.LibDotCols
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Entry

open Cert.KernelIdeal Cert.KernelIdeal.Gen Idealize.ShloMosaic Idealize.ShloMosaic.ValueIdx

/-- The zero tile holds the extended real `0` everywhere. -/
theorem zero_tile_apply (y : S1024x256.Idx) : k0_pay1 (F := Ideal) y = 0 := by
  unfold k0_pay1
  simp only [shapeCast_self]
  exact Ideal.ofBits_zero_f32

/-- Accumulate, at an entry: the old accumulator there plus the row of the adjacency tile times the column of the feature rows. -/
theorem accumulate_apply (a : Vec Ideal S1024x2048 .f32) (x : Vec Ideal S2048x256 .bf16) (acc : Vec Ideal S1024x256 .f32)
    (p : Fin 1024) (q : Fin 256) :
    k0_pay2 a x acc (ix2 p q) = acc (ix2 p q) + ∑ k : Fin 2048, a (ix2 p k) * x (ix2 k q) := by
  unfold k0_pay2
  simp only [shapeCast_self]
  exact congrArg (acc (ix2 p q) + ·)
    (Cert.Lib.DotCols.matmul_cols_apply (φ₁ := .bf16) (φ₂ := .bf16) dot_S1024x2048_S2048x256_S1024x256_1_0_0_1_n_n rfl none
      (truncf .bf16 a bitsLt_bf16_f32) x p q)

/-- Project, add the bias row, clip below at zero, at an entry. -/
theorem project_apply (h : Vec Ideal S1024x256 .f32) (wt : Vec Ideal S256x256 .bf16) (b : Vec Ideal S1x256 .f32)
    (p : Fin 1024) (q : Fin 256) :
    k0_pay3 h wt b (ix2 p q) = max ((∑ j : Fin 256, h (ix2 p j) * wt (ix2 j q)) + b (ix2 (0 : Fin 1) q)) 0 := by
  unfold k0_pay3
  simp only [shapeCast_self]
  have e1 := Cert.Lib.DotCols.matmul_cols_apply (φ₁ := .bf16) (φ₂ := .bf16) dot_S1024x256_S256x256_S1024x256_1_0_0_1_n_n rfl none
    (truncf .bf16 h bitsLt_bf16_f32) wt p q
  have e2 := broadcastTo_1b_ab_apply b broadcasts_S1x256_S1024x256 p q
  show max (_ + _) (Ideal.ofBits .f32 0x00000000#32) = _
  rw [Ideal.ofBits_zero_f32]
  exact congrArg (fun z => max z 0) (congrArg₂ (· + ·) e1 e2)

end Cert.KernelIdeal.Entry

end
-- ==== Proof.Steps.lean ====
/-
  The scratch and the result block after each grid step, as the step's arithmetic of its own tiles.

  The run's record of what the buffers hold after step `t` is defined case by case over the three kinds of step. Read through
  the per-kind statements of what a step leaves, it says, whatever the float values are:
    * after a first step of a row tile the scratch is accumulate(adjacency tile, feature rows, zero tile);
    * after any other step it is accumulate(adjacency tile, feature rows, the scratch after step `t − 1`);
    * after a last step the result block is project-bias-clip(the scratch after that same step, weight tile, bias tile).
-/
import proofs.«169878_j64029372449311_2_alg».proof.Proof.Gen.KernelIdeal.Frame
import proofs.«169878_j64029372449311_2_alg».proof.Proof.Pieces

noncomputable section

namespace Cert.KernelIdeal.Steps

open Cert.KernelIdeal Cert.KernelIdeal.Gen Idealize.ShloMosaic Idealize.ShloMosaic.TcCoe Idealize.SL.Sem Cert.KernelIdeal.Step

variable {F : FTy → Type} [FloatOps F]
variable (m : (ℓ : Loc nD τ sig) → Buf (Elt F) ℓ)

/-- The scratch after a first step of a row tile: accumulate onto the zero tile. -/
theorem scratch_first_at (c : Dev nD) (t : Fin cfg0.N) (h0 : t.val % 8 = 0) (h1 : ¬t.val % 8 = 7) :
    (outsAt0 m c t.val t.isLt).2
      = k0_pay2 (iblk m c 0 t) (featRows (grid0.coords t) (iblk m c 1 t)) (k0_pay1 (F := F)) := by
  rw [outsAt0_A m c t h0 h1]
  dsimp only
  exact scratch_first (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- The scratch after any other step: accumulate onto what the step before left. -/
theorem scratch_next_at (c : Dev nD) (t : Fin cfg0.N) (h0 : ¬t.val % 8 = 0) :
    (outsAt0 m c t.val t.isLt).2
      = k0_pay2 (iblk m c 0 t) (featRows (grid0.coords t) (iblk m c 1 t))
          (outsAt0 m c (t.val - 1) (Nat.lt_of_le_of_lt (Nat.sub_le _ _) t.isLt)).2 := by
  by_cases h1 : t.val % 8 = 7
  · rw [outsAt0_C m c t h0 h1]
    dsimp only
    exact scratch_last (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact scratch_middle (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- At a last step the result block is project-bias-clip of the scratch the same step leaves. -/
theorem block_of_scratch (c : Dev nD) (t : Fin cfg0.N) (h1 : t.val % 8 = 7) :
    (outsAt0 m c t.val t.isLt).1 = k0_pay3 (outsAt0 m c t.val t.isLt).2 (iblk m c 2 t) (iblk m c 3 t) := by
  have h0 : ¬t.val % 8 = 0 := by omega
  rw [outsAt0_C m c t h0 h1]
  dsimp only
  have eb := block_last (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  have es := scratch_last (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  exact eb.trans (congrArg (fun z => k0_pay3 z (iblk m c 2 t) (iblk m c 3 t)) es.symm)

end Cert.KernelIdeal.Steps

end
-- ==== Proof.Accum.lean ====
/-
  The accumulator after every grid step.

  INVARIANT. After step `n` — row tile `n / 8`, column tile `n % 8` — the scratch accumulator holds, at `(p, q)`, feature `q` of
  node `1024 · (n / 8) + p` aggregated over that node's first `2048 · (n % 8) + 2048` neighbours.

  A first step of a row tile (`n % 8 = 0`) leaves `0 +` the first 2048 neighbours' terms. Any other step finds what step `n − 1`
  left — the same row tile, the first `2048 · (n % 8)` neighbours — and adds the next 2048 neighbours' terms; the aggregate over
  `m + 2048` neighbours is the aggregate over `m` plus those terms. Nothing but the associativity of the sum is used.
-/
import proofs.«169878_j64029372449311_2_alg».proof.Proof.Tiles
import proofs.«169878_j64029372449311_2_alg».proof.Proof.Payload
import proofs.«169878_j64029372449311_2_alg».proof.Proof.Steps

noncomputable section

open scoped BigOperators

namespace Cert.KernelIdeal.Accum

open Cert.KernelIdeal Cert.KernelIdeal.Gen Idealize.ShloMosaic Idealize.ShloMosaic.TcCoe Idealize.SL.Sem Idealize.ShloMosaic.ValueIdx
open Cert.GraphConv Cert.LibBlockSum Cert.KernelIdeal.Step Cert.KernelIdeal.Tiles Cert.KernelIdeal.Entry Cert.KernelIdeal.Steps Finset

variable (m : (ℓ : Loc nD τ sig) → Buf (Elt Ideal) ℓ)

/-- One step's accumulate at `(p, q)`, over the argument arrays: the accumulator there plus the 2048 terms of this step's
    neighbours, `A[row, 2048 · (t % 8) + k] · X[2048 · (t % 8) + k, q]`. -/
theorem step_apply (c : Dev nD) (t : Fin cfg0.N) (acc : Vec Ideal S1024x256 .f32) (p : Fin 1024) (q : Fin 256) :
    k0_pay2 (iblk m c 0 t) (featRows (grid0.coords t) (iblk m c 1 t)) acc (ix2 p q)
      = acc (ix2 p q) + ∑ k ∈ range 2048, at2 (adj m c) (1024 * (t.val / 8) + p.val) (2048 * (t.val % 8) + k)
          * at2 (feat m c) (2048 * (t.val % 8) + k) q.val := by
  refine (accumulate_apply (iblk m c 0 t) (featRows (grid0.coords t) (iblk m c 1 t)) acc p q).trans ?_
  rw [Finset.sum_range]
  refine congrArg (acc (ix2 p q) + ·) (Finset.sum_congr rfl fun k _ => ?_)
  rw [adj_tile m c t p k, feat_rows m c t k q]

/-- The invariant at a first step of a row tile. -/
theorem after_first (c : Dev nD) (t : Fin cfg0.N) (h0 : t.val % 8 = 0) (p : Fin 1024) (q : Fin 256) :
    (outsAt0 m c t.val t.isLt).2 (ix2 p q)
      = agg (adj m c) (feat m c) (1024 * (t.val / 8) + p.val) q.val (2048 * (t.val % 8) + 2048) := by
  have h1 : ¬t.val % 8 = 7 := by omega
  rw [scratch_first_at m c t h0 h1, step_apply, zero_tile_apply, zero_add, agg_add, h0, Nat.mul_zero, agg_zero, zero_add]

/-- The invariant at any other step, from the invariant at the step before. -/
theorem after_next (c : Dev nD) (t : Fin cfg0.N) (h0 : ¬t.val % 8 = 0)
    (ih : ∀ (p : Fin 1024) (q : Fin 256), (outsAt0 m c (t.val - 1) (Nat.lt_of_le_of_lt (Nat.sub_le _ _) t.isLt)).2 (ix2 p q)
      = agg (adj m c) (feat m c) (1024 * ((t.val - 1) / 8) + p.val) q.val (2048 * ((t.val - 1) % 8) + 2048))
    (p : Fin 1024) (q : Fin 256) :
    (outsAt0 m c t.val t.isLt).2 (ix2 p q)
      = agg (adj m c) (feat m c) (1024 * (t.val / 8) + p.val) q.val (2048 * (t.val % 8) + 2048) := by
  have ea : (t.val - 1) / 8 = t.val / 8 := by omega
  have eb : 2048 * ((t.val - 1) % 8) + 2048 = 2048 * (t.val % 8) := by omega
  rw [scratch_next_at m c t h0, step_apply, ih, ea, eb, agg_add]

/-- THE INVARIANT, at every step, by induction on the step. -/
theorem scratch_after (c : Dev nD) : ∀ (n : ℕ) (h : n < cfg0.N) (p : Fin 1024) (q : Fin 256),
    (outsAt0 m c n h).2 (ix2 p q)
      = agg (adj m c) (feat m c) (1024 * (n / 8) + p.val) q.val (2048 * (n % 8) + 2048)
  | 0, h, p, q => after_first m c ⟨0, h⟩ rfl p q
  | n + 1, h, p, q => by
    by_cases h0 : (n + 1) % 8 = 0
    · exact after_first m c ⟨n + 1, h⟩ h0 p q
    · exact after_next m c ⟨n + 1, h⟩ h0 (fun p q => scratch_after c n (Nat.lt_of_succ_lt h) p q) p q

end Cert.KernelIdeal.Accum

end
-- ==== Proof.Result.lean ====
/-
  The result array after the run is the layer of the argument arrays.

  Only the last step of a row tile (`t % 8 = 7`) stores a result block and only there is the block written back. By the
  accumulator's invariant the scratch then holds, at `(p, j)`, feature `j` of node `1024 · (t / 8) + p` aggregated over
  `2048 · 7 + 2048 = 16384` neighbours — all of them; the step projects that row through the weights, adds the bias and clips at
  zero, which is the layer at `(1024 · (t / 8) + p, q)`. The block goes to rows `1024 · (t / 8) …` of the result array, so what
  is written back is that block of the layer; and row `r` of the array lies in the block of step `8 · (r / 1024) + 7`, so the
  sixteen write-backs cover the array.
-/
import proofs.«169878_j64029372449311_2_alg».proof.Proof.Accum
import proofs.«169878_j64029372449311_2_alg».proof.Proof.Gen.KernelIdeal.Value

noncomputable section

open scoped BigOperators

namespace Cert.KernelIdeal.Result

open Cert.KernelIdeal Cert.KernelIdeal.Gen Idealize.ShloMosaic Idealize.ShloMosaic.TcCoe Idealize.SL.Sem Idealize.ShloMosaic.ValueIdx
open Cert.GraphConv Cert.LibBlockSum Cert.KernelIdeal.Step Cert.KernelIdeal.Tiles Cert.KernelIdeal.Entry Cert.KernelIdeal.Accum Cert.KernelIdeal.Steps
open Idealize.ShloMosaic.Pipeline (Dat)

variable (m : (ℓ : Loc nD τ sig) → Buf (Elt Ideal) ℓ) (ρ : Dev nD → PrngReg)

/-- What the result array is to hold: the layer of the four argument arrays as launched. -/
abbrev result (c : Dev nD) : Buf (Elt Ideal) ((c : Thread nD τ).loc main_v4) :=
  layer (adj m c) (feat m c) (wts m c) (bias m c)

/-- At a last step the result block at `(p, q)` is the layer at row `1024 · (t / 8) + p`, column `q`. -/
theorem block_apply (c : Dev nD) (t : Fin cfg0.N) (h1 : t.val % 8 = 7) (p : Fin 1024) (q : Fin 256)
    (hr : 1024 * (t.val / 8) + p.val < 16384) :
    (outsAt0 m c t.val t.isLt).1 (ix2 p q) = result m c (ix2 ⟨1024 * (t.val / 8) + p.val, hr⟩ q) := by
  rw [block_of_scratch m c t h1]
  refine (project_apply _ _ _ p q).trans ?_
  refine congrArg (fun z => max z 0) (congrArg₂ (· + ·) (Finset.sum_congr rfl fun j _ => ?_) (bias_tile m c t q))
  rw [scratch_after m c t.val t.isLt p j, wt_tile m c t j q, h1]

/-- An index of the result array is in step `t`'s block iff each coordinate is in the block's range on its axis. -/
theorem mem_block (t : Fin cfg0.N) (i : S16384x256.Idx) :
    i ∈ ((cfg0.win 4).blk t).view.set ↔ ∀ a : Fin 2, win0_4.index t a * S1024x256.size a ≤ (i a).val ∧ (i a).val < win0_4.index t a * S1024x256.size a + S1024x256.size a := by
  show i ∈ ((View.whole main_v4).slice (win0_4.rect t)).set ↔ _
  rw [View.set_slice_whole, Rect.mem_set_unit]
  exact Iff.rfl

/-- WHAT A WRITE-BACK WRITES is its block of the layer. -/
theorem flushed_eq (c : Dev nD) (t : Fin cfg0.N) (hf : (cfg0.win 4).flush t = true) :
    (dats m 0 c).flushed 4 t = ((cfg0.win 4).blk t).view.read (Elt Ideal) (result m c) := by
  have h1 : t.val % 8 = 7 := (flush0_4 t).mp hf
  have hN : t.val < 128 := lt_of_lt_of_eq t.isLt (show cfg0.N = 128 from N_0)
  obtain ⟨-, -, -, -, -, -, -, -, e0, e1, -⟩ := tile_facts t
  rw [Value.flushed4]
  funext y
  obtain ⟨p, q, rfl⟩ : ∃ (p : Fin 1024) (q : Fin 256), y = ix2 p q := ⟨y 0, y 1, eq_ix2 y⟩
  rw [View.read_apply]
  show (outsAt0 m c t.val t.isLt).1 (ix2 p q) = result m c (((cfg0.win 4).blk t).view.emb (ix2 p q))
  rw [block_apply m c t h1 p q (by have := p.isLt; omega)]
  refine congrArg (result m c) (funext fun a => Fin.ext ?_)
  match a with
  | ⟨0, _⟩ => show 1024 * (t.val / 8) + p.val = win0_4.index t (0 : Fin 2) * 1024 + 1 * p.val; rw [e0]; omega
  | ⟨1, _⟩ => show q.val = win0_4.index t (1 : Fin 2) * 256 + 1 * q.val; rw [e1]; omega

/-- Every entry of the result array is in the block some write-back writes: row `r` in that of step `8 · (r / 1024) + 7`. -/
theorem cover (i : S16384x256.Idx) : ∃ t : Fin cfg0.N, (cfg0.win 4).flush t = true ∧ i ∈ ((cfg0.win 4).blk t).view.set := by
  have hi0 : (i 0).val < 16384 := (i 0).isLt
  have hi1 : (i 1).val < 256 := (i 1).isLt
  obtain ⟨t, ht⟩ : ∃ t : Fin cfg0.N, t.val = 8 * ((i 0).val / 1024) + 7 :=
    ⟨⟨8 * ((i 0).val / 1024) + 7, by rw [show cfg0.N = 128 from N_0]; omega⟩, rfl⟩
  obtain ⟨-, -, -, -, -, -, -, -, e0, e1, -⟩ := tile_facts t
  refine ⟨t, (flush0_4 t).mpr (by omega), ?_⟩
  rw [mem_block]
  intro a
  match a with
  | ⟨0, _⟩ => show win0_4.index t (0 : Fin 2) * 1024 ≤ (i 0).val ∧ (i 0).val < win0_4.index t (0 : Fin 2) * 1024 + 1024; rw [e0]; omega
  | ⟨1, _⟩ => show win0_4.index t (1 : Fin 2) * 256 ≤ (i 1).val ∧ (i 1).val < win0_4.index t (1 : Fin 2) * 256 + 256; rw [e1]; omega

/-- So the result array ends holding the layer. -/
theorem final (c : Dev nD) : (dats m 0 c).arrAt 4 cfg0.N = result m c :=
  (dats m 0 c).arrAt_eq_of_cover 4 (result m c) (flushed_eq m c) cover

/-- THE RUN, READ: every weakly fair execution ends with the result array at the layer of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Result

end
-- ==== Proof.lean ====
/-
  One graph-convolution layer, `relu ((A · X) · Wᵀ + b)`, computed tile by tile, equals the same layer computed in one pass.

  A is 16384 × 16384, X is 16384 × 256, W is 256 × 256 and b has 256 entries. The tiled program walks a 16 × 8 grid of
  1024 × 2048 tiles of A, column tile innermost; along a row of tiles it accumulates `A-tile · (the matching 2048 rows of X)` in a
  1024 × 256 scratch array that starts at zero, and at the last column tile it multiplies the accumulator by `Wᵀ`, adds `b`, clips
  at zero and writes the 1024 rows of the result. The one-pass program forms `A · X`, contracts it with `W` along the input
  feature, adds `b` and clips at zero. Read over the extended reals — where a change of float format is the identity and a
  matrix product is its sum of products — both are, at node `r` and output feature `o`,

      max ( (∑ j, (∑ k, A[r, k] · X[k, j]) · W[o, j]) + b[o] , 0 ),

  and the only difference is that the tiled program sums `k` in eight consecutive blocks of 2048 starting from `0 +`. A sum over the
  first `n + 2048` indices is the sum over the first `n` plus the next 2048 terms, in any additive commutative monoid; the
  extended reals are one, infinities included, so no entry needs to be finite and the precondition is not used.

  The modules: `Spec` (the formula and that splitting law), `RefLayer` (the one-pass program's last stage is the formula),
  `Pieces` and `Steps` (what a grid step leaves in the scratch and in the result block, as the step's arithmetic), `Payload` (that
  arithmetic at one entry), `Tiles` (a step's tiles as entries of the four arrays), `Accum` (the scratch after every step, by
  induction on the step), `Result` (the result array after the run). The tiled program read at machine words and read over the extended reals is one
  text: no operation was rewritten between the two readings.
-/
import proofs.«169878_j64029372449311_2_alg».proof.Defs
import proofs.«169878_j64029372449311_2_alg».proof.Proof.Gen.Kernel
import proofs.«169878_j64029372449311_2_alg».proof.Proof.Gen.Kernel.Frame
import proofs.«169878_j64029372449311_2_alg».proof.Proof.Gen.KernelIdeal
import proofs.«169878_j64029372449311_2_alg».proof.Proof.Gen.KernelIdeal.Frame
import proofs.«169878_j64029372449311_2_alg».proof.Proof.Gen.KernelIdeal.Value
import proofs.«169878_j64029372449311_2_alg».proof.Proof.Gen.ReferenceIdeal
import proofs.«169878_j64029372449311_2_alg».proof.Proof.Gen.ReferenceIdeal.Run
import proofs.«169878_j64029372449311_2_alg».proof.Proof.Gen.ReferenceIdeal.Read
import proofs.«169878_j64029372449311_2_alg».proof.Proof.Gen.Pre_finite_inputs
import proofs.«169878_j64029372449311_2_alg».proof.Proof.RefLayer
import proofs.«169878_j64029372449311_2_alg».proof.Proof.Result
import Idealize.ShloMosaic.Adequacy
import Idealize.ShloMosaic.Init

noncomputable section

namespace Cert.Proof

open Idealize.ShloMosaic Idealize.SL.Sem

/-- The tiled program, read at machine words and read over the extended reals, runs to the end and leaves its arguments as
    they were. -/
theorem frame_tiled : Cert.frame_Kernel := fun m ρ _ => Cert.Kernel.Gen.frame m ρ
theorem frame_tiled_ideal : Cert.frame_KernelIdeal := fun m ρ _ => Cert.KernelIdeal.Gen.frame m ρ

/-- So does the one-pass program: its run with the result forgotten. -/
theorem frame_one_pass : Cert.frame_ReferenceIdeal := fun m ρ _ =>
  (θ_run Cert.ReferenceIdeal.defs _ _).mono (fun _ h c => (h c).2) (Cert.ReferenceIdeal.Value.run (F := Ideal) m ρ)

/-- No operation of the tiled program was rewritten between its two readings. -/
theorem preserves : Cert.preserves_Kernel_KernelIdeal := trivial

/-- Over the extended reals both programs end with the layer of their arguments, and the arguments agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.GraphConv.Ref.stage_eq_layer,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_tiled, frame_tiled_ideal, frame_one_pass, preserves, algebraic⟩

end Cert.Proof

end
